-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x768 : Shape := ⟨2, ![1024, 768]⟩
abbrev S16384x768 : Shape := ⟨2, ![16384, 768]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S16384x768 : S_.BroadcastsInDim S16384x768 (![] : Fin 0 → Fin S16384x768.rank)
  reducesTo_S16384x768_S_d0_1 : S16384x768.ReducesTo [0, 1] S_

variable [Facts]

def fn {F : FTy → Type} [FloatOps F] (main_arg0 : FVec F S8192x1024 .f32) (main_arg1 : FVec F S1024x768 .f32) (main_arg2 : FVec F S16384x768 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S16384x768 .f32 := Host.absf main_arg2
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_c_3 : IVec S_ 1 := constantI S_ 1 1#1
  let main_v12 : IVec S_ 1 := (fun x v => Host.reduce IntOp.andi x v reducesTo_S16384x768_S_d0_1 h_S_) main_v11 main_c_3
  let main_v13 : IVec S_ 1 := andi main_v8 main_v12
  main_v13
-- ==== Kernel.lean ====
abbrev S8192x1024 : Shape := ⟨2, ![8192, 1024]⟩
abbrev S1024x768 : Shape := ⟨2, ![1024, 768]⟩
abbrev S16384x768 : Shape := ⟨2, ![16384, 768]⟩
abbrev S8192x768 : Shape := ⟨2, ![8192, 768]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S16384x1 : Shape := ⟨2, ![16384, 1]⟩
abbrev S1x16384 : Shape := ⟨2, ![1, 16384]⟩
abbrev S8192x16384 : Shape := ⟨2, ![8192, 16384]⟩
abbrev S2048x768 : Shape := ⟨2, ![2048, 768]⟩
abbrev S512x768 : Shape := ⟨2, ![512, 768]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 9
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S16384x768, .f32⟩
  | .hbm, ⟨3, _⟩ => ⟨S8192x768, .bf16⟩
  | .hbm, ⟨4, _⟩ => ⟨S8192x1, .f32⟩
  | .hbm, ⟨5, _⟩ => ⟨S16384x768, .bf16⟩
  | .hbm, ⟨6, _⟩ => ⟨S16384x1, .f32⟩
  | .hbm, ⟨7, _⟩ => ⟨S1x16384, .f32⟩
  | .hbm, ⟨8, _⟩ => ⟨S8192x16384, .f32⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .bf16⟩
  | .local _ .vmem, ⟨4, _⟩ => ⟨S1024x768, .bf16⟩
  | .local _ .vmem, ⟨5, _⟩ => ⟨S1024x1, .f32⟩
  | .local _ .vmem, ⟨6, _⟩ => ⟨S1024x1, .f32⟩
  | .local _ .vmem, ⟨7, _⟩ => ⟨S1024x768, .f32⟩
  | .local _ .vmem, ⟨8, _⟩ => ⟨S1024x768, .f32⟩
  | .local _ .vmem, ⟨9, _⟩ => ⟨S1024x768, .bf16⟩
  | .local _ .vmem, ⟨10, _⟩ => ⟨S1024x768, .bf16⟩
  | .local _ .vmem, ⟨11, _⟩ => ⟨S1024x1, .f32⟩
  | .local _ .vmem, ⟨12, _⟩ => ⟨S1024x1, .f32⟩
  | .local _ .vmem, ⟨13, _⟩ => ⟨S2048x768, .bf16⟩
  | .local _ .vmem, ⟨14, _⟩ => ⟨S2048x768, .bf16⟩
  | .local _ .vmem, ⟨15, _⟩ => ⟨S512x768, .bf16⟩
  | .local _ .vmem, ⟨16, _⟩ => ⟨S512x768, .bf16⟩
  | .local _ .vmem, ⟨17, _⟩ => ⟨S2048x1, .f32⟩
  | .local _ .vmem, ⟨18, _⟩ => ⟨S2048x1, .f32⟩
  | .local _ .vmem, ⟨19, _⟩ => ⟨S1x512, .f32⟩
  | .local _ .vmem, ⟨20, _⟩ => ⟨S1x512, .f32⟩
  | .local _ .vmem, ⟨21, _⟩ => ⟨S2048x512, .f32⟩
  | .local _ .vmem, ⟨22, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  reduces_S1024x768_S1024 : S1024x768.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S16384x1_S1x16384_1_0 : S16384x1.Transposes [1, 0] S1x16384
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S1024x1024_S1024x768_S1024x768_1_0_0_1_n_n_wf : DotDims.WF S1024x1024 S1024x768 S1024x768 [1] [0] [0] [1] [] []
  dot_S2048x768_S512x768_S2048x512_1_1_0_0_n_n_wf : DotDims.WF S2048x768 S512x768 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .f32 = 32 ∨ (Rect.block (s := S1024x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S8192x768.size a
  hwx0_2 : ∀ i : grid0.Coords, EltTy.bits .bf16 = 32 ∨ (Rect.block (s := S8192x768) S1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S16384x768.size a
  hwx1_0 : ∀ i : grid1.Coords, EltTy.bits .f32 = 32 ∨ (Rect.block (s := S16384x768) S1024x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S16384x768.size a
  hwx1_1 : ∀ i : grid1.Coords, EltTy.bits .bf16 = 32 ∨ (Rect.block (s := S16384x768) S1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x768.size a ≤ S8192x768.size a
  hwx2_0 : ∀ i : grid2.Coords, EltTy.bits .bf16 = 32 ∨ (Rect.block (s := S8192x768) S2048x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S16384x768.size a
  hwx2_1 : ∀ i : grid2.Coords, EltTy.bits .bf16 = 32 ∨ (Rect.block (s := S16384x768) S512x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x16384.size a
  hwx2_3 : ∀ i : grid2.Coords, EltTy.bits .f32 = 32 ∨ (Rect.block (s := S1x16384) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S8192x16384.size a
  hwx2_4 : ∀ i : grid2.Coords, EltTy.bits .f32 = 32 ∨ (Rect.block (s := S8192x16384) S2048x512.size (cc2_transform_4 i) (hinb2_4 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S2048x768_S512x768_S2048x512_1_1_0_0_n_n : DotDims S2048x768 S512x768 S2048x512 where
  lhsContracting := [1]
  rhsContracting := [1]
  lhsNonContracting := [0]
  rhsNonContracting := [0]
  lhsBatch := []
  rhsBatch := []
  wf := dot_S2048x768_S512x768_S2048x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x768.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S2048x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x768 : Shape := ⟨2, ![1024, 768]⟩
abbrev S16384x768 : Shape := ⟨2, ![16384, 768]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S16384 : Shape := ⟨1, ![16384]⟩
abbrev S768x16384 : Shape := ⟨2, ![768, 16384]⟩
abbrev S8192x16384 : Shape := ⟨2, ![8192, 16384]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S16384x768, .f32⟩
  | .hbm, ⟨3, _⟩ => ⟨S8192x768, .f32⟩
  | .hbm, ⟨4, _⟩ => ⟨S8192x768, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S16384x768, .f32⟩
  | .hbm, ⟨9, _⟩ => ⟨S_, .f32⟩
  | .hbm, ⟨10, _⟩ => ⟨S16384, .f32⟩
  | .hbm, ⟨11, _⟩ => ⟨S768x16384, .f32⟩
  | .hbm, ⟨12, _⟩ => ⟨S8192x16384, .f32⟩
  | .hbm, ⟨13, _⟩ => ⟨S1x16384, .f32⟩
  | .hbm, ⟨14, _⟩ => ⟨S8192x16384, .f32⟩
  | .hbm, ⟨15, _⟩ => ⟨S8192x16384, .f32⟩
  | .hbm, ⟨16, _⟩ => ⟨S8192x16384, .f32⟩
  | .hbm, ⟨17, _⟩ => ⟨S_, .f32⟩
  | .hbm, ⟨18, _⟩ => ⟨S8192x16384, .f32⟩
  | .hbm, ⟨19, _⟩ => ⟨S8192x16384, .f32⟩
  | .hbm, ⟨20, _⟩ => ⟨S8192x16384, .f32⟩
  | .hbm, ⟨21, _⟩ => ⟨S8192x16384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  reducesTo_S16384x768_S16384_d1 : S16384x768.ReducesTo [1] S16384
  transposes_S16384x768_S768x16384_1_0 : S16384x768.Transposes [1, 0] S768x16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  dot_S8192x1024_S1024x768_S8192x768_1_0_0_1_n_n_wf : DotDims.WF S8192x1024 S1024x768 S8192x768 [1] [0] [0] [1] [] []
  dot_S8192x768_S768x16384_S8192x16384_1_0_0_1_n_n_wf : DotDims.WF S8192x768 S768x16384 S8192x16384 [1] [0] [0] [1] [] []

variable [Facts₀]

def dot_S8192x1024_S1024x768_S8192x768_1_0_0_1_n_n : DotDims S8192x1024 S1024x768 S8192x768 where
  lhsContracting := [1]
  rhsContracting := [0]
  lhsNonContracting := [0]
  rhsNonContracting := [1]
  lhsBatch := []
  rhsBatch := []
  wf := dot_S8192x1024_S1024x768_S8192x768_1_0_0_1_n_n_wf
def dot_S8192x768_S768x16384_S8192x16384_1_0_0_1_n_n : DotDims S8192x768 S768x16384 S8192x16384 where
  lhsContracting := [1]
  rhsContracting := [0]
  lhsNonContracting := [0]
  rhsNonContracting := [1]
  lhsBatch := []
  rhsBatch := []
  wf := dot_S8192x768_S768x16384_S8192x16384_1_0_0_1_n_n_wf

class Facts : Prop extends Facts₀ where

variable [Facts]
-- ==== Proof.DistSpec.lean ====
/-
  The function both programs compute, over the extended reals, index by index.

  With x : [8192, 1024], W : [1024, 768] and centroids C : [16384, 768]:
    e (r, d)   = Σ_k x (r, k) · W (k, d)                      (the embedding, one matrix product)
    ‖e_r‖²     = Σ_d e (r, d) · e (r, d)
    ‖C_j‖²     = Σ_d C (j, d) · C (j, d)
    ⟨e_r, C_j⟩ = Σ_d e (r, d) · C (j, d)
    out (r, j) = −((‖e_r‖² + ‖C_j‖²) − 2 · ⟨e_r, C_j⟩)
  i.e. the negated squared distance of row r's embedding to centroid j, in its expanded form.  No law of the
  extended reals beyond 0 + a = a and 0 − a = −a is used between the two programs: both spell exactly these sums,
  in this grouping, so nothing here asks the inputs to be finite.
-/
import Idealize.ShloMosaic.PureOps.Ideal
import Idealize.ShloMosaic.Lib.ValueIdx

noncomputable section

namespace Cert.Dist

open Idealize.ShloMosaic Idealize.ShloMosaic.ValueIdx

/-- The literal 2.0 both programs multiply the cross term by (the same binary word on both sides: never evaluated). -/
def two : EReal := Ideal.ofBits .f32 0x40000000#32

/-- The embedding x @ W at row r, column d. -/
def emb (x : (⟨2, ![8192, 1024]⟩ : Shape).Idx → EReal) (W : (⟨2, ![1024, 768]⟩ : Shape).Idx → EReal)
    (r : Fin 8192) (d : Fin 768) : EReal :=
  ∑ k : Fin 1024, x (ix2 r k) * W (ix2 k d)

/-- The squared norm of a row of an [n, 768] array. -/
def rowSq {n : Nat} (a : (⟨2, ![n, 768]⟩ : Shape).Idx → EReal) (r : Fin n) : EReal :=
  ∑ d : Fin 768, a (ix2 r d) * a (ix2 r d)

/-- The inner product of row r of a with row j of b. -/
def rowDot {n n' : Nat} (a : (⟨2, ![n, 768]⟩ : Shape).Idx → EReal) (b : (⟨2, ![n', 768]⟩ : Shape).Idx → EReal)
    (r : Fin n) (j : Fin n') : EReal :=
  ∑ d : Fin 768, a (ix2 r d) * b (ix2 j d)

/-- The negated expanded squared distance from its three ingredients. -/
def negDist (esq csq cross : EReal) : EReal := -((esq + csq) - two * cross)

/-- The embedding as an array. -/
def embArr (x : (⟨2, ![8192, 1024]⟩ : Shape).Idx → EReal) (W : (⟨2, ![1024, 768]⟩ : Shape).Idx → EReal) :
    (⟨2, ![8192, 768]⟩ : Shape).Idx → EReal :=
  fun i => emb x W ⟨(i 0).val, (i 0).isLt⟩ ⟨(i 1).val, (i 1).isLt⟩

/-- The whole result: entry (r, j) is the negated squared distance of embedding row r to centroid j. -/
def result (x : (⟨2, ![8192, 1024]⟩ : Shape).Idx → EReal) (W : (⟨2, ![1024, 768]⟩ : Shape).Idx → EReal)
    (C : (⟨2, ![16384, 768]⟩ : Shape).Idx → EReal) : (⟨2, ![8192, 16384]⟩ : Shape).Idx → EReal :=
  fun i => negDist (rowSq (embArr x W) ⟨(i 0).val, (i 0).isLt⟩) (rowSq C ⟨(i 1).val, (i 1).isLt⟩)
    (rowDot (embArr x W) C ⟨(i 0).val, (i 0).isLt⟩ ⟨(i 1).val, (i 1).isLt⟩)

/-- A function of the row index laid out as an [n, 1] column, and as a [1, n] row. -/
def col {n : Nat} (f : Fin n → EReal) : (⟨2, ![n, 1]⟩ : Shape).Idx → EReal := fun i => f ⟨(i 0).val, (i 0).isLt⟩
def row {n : Nat} (f : Fin n → EReal) : (⟨2, ![1, n]⟩ : Shape).Idx → EReal := fun i => f ⟨(i 1).val, (i 1).isLt⟩

theorem col_ix2 {n : Nat} (f : Fin n → EReal) (r : Fin n) (u : Fin 1) : col f (ix2 r u) = f r := rfl
theorem row_ix2 {n : Nat} (f : Fin n → EReal) (u : Fin 1) (r : Fin n) : row f (ix2 u r) = f r := rfl

/-- The result from the four arrays the distance kernel is handed: the embedding, the centroids, the column of
    squared embedding norms and the row of squared centroid norms. -/
def resultOf (e : (⟨2, ![8192, 768]⟩ : Shape).Idx → EReal) (cb : (⟨2, ![16384, 768]⟩ : Shape).Idx → EReal)
    (esq : (⟨2, ![8192, 1]⟩ : Shape).Idx → EReal) (csq : (⟨2, ![1, 16384]⟩ : Shape).Idx → EReal) :
    (⟨2, ![8192, 16384]⟩ : Shape).Idx → EReal :=
  fun i => negDist (esq (ix2 ⟨(i 0).val, (i 0).isLt⟩ (0 : Fin 1))) (csq (ix2 (0 : Fin 1) ⟨(i 1).val, (i 1).isLt⟩))
    (rowDot e cb ⟨(i 0).val, (i 0).isLt⟩ ⟨(i 1).val, (i 1).isLt⟩)

/-- Handed the arrays the two preparation kernels leave, that is the result. -/
theorem resultOf_prepared (x : (⟨2, ![8192, 1024]⟩ : Shape).Idx → EReal) (W : (⟨2, ![1024, 768]⟩ : Shape).Idx → EReal)
    (C : (⟨2, ![16384, 768]⟩ : Shape).Idx → EReal) :
    resultOf (embArr x W) C (col (rowSq (embArr x W))) (row (rowSq C)) = result x W C := rfl

/-- Reading the embedding array at literal coordinates. -/
theorem embArr_ix2 (x : (⟨2, ![8192, 1024]⟩ : Shape).Idx → EReal) (W : (⟨2, ![1024, 768]⟩ : Shape).Idx → EReal)
    (r : Fin 8192) (d : Fin 768) : embArr x W (ix2 r d) = emb x W r d := rfl

end Cert.Dist

end
-- ==== Proof.PayPrep.lean ====
/-
  The embedding kernel's block arithmetic, read at an index over the extended reals.

  One grid point holds a [1024, 1024] block of x and all of W.  The roundings to bf16 are the identity over the
  extended reals, and the matrix unit accumulates into zero, so the product block at (p, d) is Σ_k x (p, k) · W (k, d);
  the stored embedding block is that value, and the stored column of squared norms at (p, 0) is Σ_d of the squares
  of row p of the product block.
-/
import proofs.«100037_j7490422964419_2_alg».proof.Proof.Gen.KernelIdeal.Skeleton
import proofs.«100037_j7490422964419_2_alg».proof.Proof.DistSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the [1024, 1024] × [1024, 768] product -/

theorem lhsA_0 (i : S1024x768.Idx) (q : dot_S1024x1024_S1024x768_S1024x768_1_0_0_1_n_n.contr.Idx) :
    (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
theorem lhsA_1 (i : S1024x768.Idx) (q : dot_S1024x1024_S1024x768_S1024x768_1_0_0_1_n_n.contr.Idx) :
    (dot_S1024x1024_S1024x768_S1024x768_1_0_0_1_n_n.lhsIdx i q 1).val = (q ⟨0, by decide⟩).val :=
  dot_S1024x1024_S1024x768_S1024x768_1_0_0_1_n_n.lhsIdx_val_of_single rfl i q
theorem rhsA_0 (i : S1024x768.Idx) (q : dot_S1024x1024_S1024x768_S1024x768_1_0_0_1_n_n.contr.Idx) :
    (dot_S1024x1024_S1024x768_S1024x768_1_0_0_1_n_n.rhsIdx i q 0).val = (q ⟨0, by decide⟩).val :=
  dot_S1024x1024_S1024x768_S1024x768_1_0_0_1_n_n.rhsIdx_val_of_single rfl i q
theorem rhsA_1 (i : S1024x768.Idx) (q : dot_S1024x1024_S1024x768_S1024x768_1_0_0_1_n_n.contr.Idx) :
    (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

/-- The product block at (p, d): the sum over the contracted coordinate of the operands' products. -/
theorem prodA_apply (x0 : Vec Ideal S1024x1024 .f32) (x1 : Vec Ideal S1024x768 .f32) (p : Fin 1024) (d : Fin 768) :
    k0_pay1 (F := Ideal) x0 x1 (ix2 p d) = ∑ k : Fin 1024, x0 (ix2 p k) * x1 (ix2 k d) := by
  unfold k0_pay1
  refine (Ideal.matmul_constant_zero_apply dot_S1024x1024_S1024x768_S1024x768_1_0_0_1_n_n none _ _ (ix2 p d)).trans ?_
  rw [← Equiv.sum_comp (ValueIdx.contrEquiv1 dot_S1024x1024_S1024x768_S1024x768_1_0_0_1_n_n 1024 rfl rfl).symm]
  refine Finset.sum_congr rfl fun k _ => ?_
  have hk := ValueIdx.contrEquiv1_symm_val dot_S1024x1024_S1024x768_S1024x768_1_0_0_1_n_n 1024 rfl rfl k
  have el : dot_S1024x1024_S1024x768_S1024x768_1_0_0_1_n_n.lhsIdx (ix2 p d) ((ValueIdx.contrEquiv1 dot_S1024x1024_S1024x768_S1024x768_1_0_0_1_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x768_S1024x768_1_0_0_1_n_n.rhsIdx (ix2 p d) ((ValueIdx.contrEquiv1 dot_S1024x1024_S1024x768_S1024x768_1_0_0_1_n_n 1024 rfl rfl).symm k) = ix2 k d := funext fun a => Fin.ext (by
    match a with
    | ⟨0, _⟩ => exact (rhsA_0 _ _).trans hk
    | ⟨1, _⟩ => exact rhsA_1 _ _)
  rw [el, er]
  rfl

/-- The stored embedding block is the product block (the rounding to bf16 is the identity here). -/
theorem embBlock_apply (x0 : Vec Ideal S1024x1024 .f32) (x1 : Vec Ideal S1024x768 .f32) (p : Fin 1024) (d : Fin 768) :
    k0_pay2 (F := Ideal) x0 x1 (ix2 p d) = ∑ k : Fin 1024, x0 (ix2 p k) * x1 (ix2 k d) :=
  prodA_apply x0 x1 p d

/-- A lane sum of a [1024, 768] block kept as a [1024, 1] column, at (p, u): the sum over the lanes of row p. -/
theorem rowSumCol_apply (y : FVec Ideal S1024x768 .f32) (hacc : (0x00000000#32 : BitVec 32) = 0x00000000#32)
    (p : Fin 1024) (u : Fin 1) :
    shapeCast S1024x1 (multiReduction (F := Ideal) .add [1] S1024 y 0x00000000#32 reduces_S1024x768_S1024 (.inl rfl) hacc) shapeCasts_S1024_S1024x1 (ix2 p u)
      = ∑ d : Fin 768, y (ix2 p d) := by
  refine (shapeCast_apply _ shapeCasts_S1024_S1024x1 (ix2 p u) (ix1 p) (by
    have hu : u.val = 0 := by omega
    rw [Shape.rowMajor_val_two, Shape.rowMajor_val_one]
    show p.val = p.val * 1 + u.val
    omega)).trans ?_
  refine (Ideal.multiReduction_add_single y 0x00000000#32 reduces_S1024x768_S1024 (.inl rfl) hacc (ix1 p)).trans ?_
  refine Finset.sum_congr rfl fun d _ => congrArg y (funext fun a => Fin.ext (by
    match a with
    | ⟨0, _⟩ => rfl
    | ⟨1, _⟩ => rfl))

/-- The stored column of squared norms at (p, u): the sum of the squares of row p of the product block. -/
theorem embSqBlock_apply (x0 : Vec Ideal S1024x1024 .f32) (x1 : Vec Ideal S1024x768 .f32) (p : Fin 1024) (u : Fin 1) :
    k0_pay3 (F := Ideal) x0 x1 (ix2 p u)
      = ∑ d : Fin 768, (∑ k : Fin 1024, x0 (ix2 p k) * x1 (ix2 k d)) * (∑ k : Fin 1024, x0 (ix2 p k) * x1 (ix2 k d)) := by
  unfold k0_pay3
  refine (rowSumCol_apply _ rfl p u).trans ?_
  refine Finset.sum_congr rfl fun d _ => ?_
  show k0_pay1 (F := Ideal) x0 x1 (ix2 p d) * k0_pay1 (F := Ideal) x0 x1 (ix2 p d) = _
  rw [prodA_apply]

/-! ## The centroid preparation kernel -/

/-- The re-typed copy of a centroid block is the block. -/
theorem cenBlock_apply (x0 : Vec Ideal S1024x768 .f32) (p : Fin 1024) (d : Fin 768) :
    k1_pay1 (F := Ideal) x0 (ix2 p d) = x0 (ix2 p d) := rfl

/-- The stored column of squared centroid norms at (p, u): the sum of the squares of row p of the block. -/
theorem cenSqBlock_apply (x0 : Vec Ideal S1024x768 .f32) (p : Fin 1024) (u : Fin 1) :
    k1_pay2 (F := Ideal) x0 (ix2 p u) = ∑ d : Fin 768, x0 (ix2 p d) * x0 (ix2 p d) := by
  unfold k1_pay2
  exact rowSumCol_apply _ rfl p u

end Cert.KernelIdeal.Pay

end
-- ==== Proof.RegEmbed.lean ====
/-
  What the embedding kernel's pipeline leaves in its two output arrays, as functions of the arrays it finds.

  Grid point t (of 8) stages rows 1024·t … 1024·t + 1023 of x and all of W, and writes back rows 1024·t … of the
  embedding (all 768 columns) and of the column of squared norms.  A block's element (p, ·) therefore sits at array
  row 1024·t + p; the blocks of consecutive points tile the rows, so every row is written by point (row / 1024).
-/
import proofs.«100037_j7490422964419_2_alg».proof.Proof.Gen.KernelIdeal.Frame
import proofs.«100037_j7490422964419_2_alg».proof.Proof.PayPrep
import Idealize.ShloMosaic.Lib.Pipeline.Value
import Idealize.ShloMosaic.Lib.ValueIdx

set_option maxRecDepth 16384

noncomputable section

namespace Cert.KernelIdeal.RegEmbed

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 8 grid points: x and both outputs move down the rows with the point, W stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 8 := by
  have h := t.isLt
  have hN : cfg0.N = 8 := N_0
  omega

/-- The array row of a block's row p at grid point t. -/
def rowAt (t : Fin cfg0.N) (p : Fin 1024) : Fin 8192 := ⟨t.val * 1024 + p.val, by have := t_lt t; have := p.isLt; omega⟩

/-- x's block at point t, at (p, k), is x at (1024·t + p, k). -/
theorem xblk (c : Dev nD) (t : Fin cfg0.N) (p k : Fin 1024) :
    (iblk0 V c 0 t : Vec Ideal S1024x1024 .f32) (ix2 p k) = (V c main_arg0 : S8192x1024.Idx → EReal) (ix2 (rowAt t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * p.val = t.val * 1024 + p.val; rw [e0]; omega
  | ⟨1, _⟩ => show win0_0.index t 1 * 1024 + 1 * k.val = k.val; rw [e1]; omega

/-- W's block at every point is W. -/
theorem wblk (c : Dev nD) (t : Fin cfg0.N) (k : Fin 1024) (d : Fin 768) :
    (iblk0 V c 1 t : Vec Ideal S1024x768 .f32) (ix2 k d) = (V c main_arg1 : S1024x768.Idx → EReal) (ix2 k d) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 1024 + 1 * k.val = k.val; rw [e2]; omega
  | ⟨1, _⟩ => show win0_1.index t 1 * 768 + 1 * d.val = d.val; rw [e3]; omega

/-- The embedding the region computes from the arrays it finds. -/
abbrev E (c : Dev nD) : S8192x768.Idx → EReal := Cert.Dist.embArr (V c main_arg0) (V c main_arg1)

/-- The two staged blocks of point t, as arrays of extended reals. -/
abbrev xB (c : Dev nD) (t : Fin cfg0.N) : S1024x1024.Idx → EReal := iblk0 V c 0 t
abbrev wB (c : Dev nD) (t : Fin cfg0.N) : S1024x768.Idx → EReal := iblk0 V c 1 t

/-- The product block of point t at (p, d) is the embedding at (1024·t + p, d). -/
theorem prod_at (c : Dev nD) (t : Fin cfg0.N) (p : Fin 1024) (d : Fin 768) :
    (∑ k : Fin 1024, xB V c t (ix2 p k) * wB V c t (ix2 k d))
      = Cert.Dist.emb (V c main_arg0) (V c main_arg1) (rowAt t p) d := by
  unfold Cert.Dist.emb
  refine Finset.sum_congr rfl fun k _ => ?_
  have h1 : xB V c t (ix2 p k) = (V c main_arg0 : S8192x1024.Idx → EReal) (ix2 (rowAt t p) k) := xblk V c t p k
  have h2 : wB V c t (ix2 k d) = (V c main_arg1 : S1024x768.Idx → EReal) (ix2 k d) := wblk V c t k d
  rw [h1, h2]

/-! ## The embedding array (output window 2) -/

/-- Point t writes back block t of the embedding. -/
theorem flushed_emb (c : Dev nD) (t : Fin cfg0.N) :
    (dat0 V c).flushed 2 t = ((cfg0.win 2).blk t).view.read (Elt Ideal) (E V c) := by
  obtain ⟨-, -, -, -, e4, e5, -⟩ := idx_facts t
  show (cfg0.win 2).cut (grid0.coords t) ((dat0 V c).after 2 t) = _
  rw [after0_2]
  unfold out0_2
  rw [View.canon_unit_zero hz]
  simp only [View.ld_unit_zero (S := S1024x1024) hz, View.ld_unit_zero (S := S1024x768) hz]
  funext j
  obtain ⟨p, d, rfl⟩ : ∃ (p : Fin 1024) (d : Fin 768), j = ix2 p d := ⟨j 0, j 1, eq_ix2 j⟩
  show k0_pay2 (F := Ideal) (iblk0 V c 0 t) (iblk0 V c 1 t) (ix2 p d) = E V c (((cfg0.win 2).blk t).view.emb (ix2 p d))
  have he : ((cfg0.win 2).blk t).view.emb (ix2 p d) = (ix2 (rowAt t p) d : S8192x768.Idx) := by
    funext a
    apply Fin.ext
    match a with
    | ⟨0, _⟩ => show win0_2.index t 0 * 1024 + 1 * p.val = t.val * 1024 + p.val; rw [e4]; omega
    | ⟨1, _⟩ => show win0_2.index t 1 * 768 + 1 * d.val = d.val; rw [e5]; omega
  rw [he]
  refine (Pay.embBlock_apply _ _ p d).trans ?_
  exact prod_at V c t p d

theorem mem_blk2 (t : Fin cfg0.N) (i : S8192x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v0_0).slice (win0_2.rect t)).set ↔ _
  rw [View.set_slice_whole, Rect.mem_set_unit]
  exact Iff.rfl

/-- Row r of the embedding is written by point r / 1024. -/
theorem cover2 (i : S8192x768.Idx) :
    ∃ t : Fin cfg0.N, (cfg0.win 2).flush t = true ∧ i ∈ ((cfg0.win 2).blk t).view.set := by
  have hi0 : (i 0).val < 8192 := (i 0).isLt
  have hi1 : (i 1).val < 768 := (i 1).isLt
  have hN : cfg0.N = 8 := N_0
  let t : Fin cfg0.N := ⟨(i 0).val / 1024, by omega⟩
  obtain ⟨-, -, -, -, e4, e5, -⟩ := idx_facts t
  have ht : t.val = (i 0).val / 1024 := rfl
  refine ⟨t, flush0_2 t, ?_⟩
  rw [mem_blk2]
  intro a
  match a with
  | ⟨0, _⟩ => show win0_2.index t 0 * 1024 ≤ (i 0).val ∧ (i 0).val < win0_2.index t 0 * 1024 + 1024; rw [e4, ht]; omega
  | ⟨1, _⟩ => show win0_2.index t 1 * 768 ≤ (i 1).val ∧ (i 1).val < win0_2.index t 1 * 768 + 768; rw [e5]; omega

/-- The embedding array after the region: x @ W of the arrays the region finds. -/
theorem final_emb (c : Dev nD) : (dat0 V c).arrAt 2 cfg0.N = E V c :=
  (dat0 V c).arrAt_eq_of_cover 2 (E V c) (fun t _ => flushed_emb V c t) cover2

/-! ## The column of squared embedding norms (output window 3) -/

/-- The column the region computes. -/
abbrev Esq (c : Dev nD) : S8192x1.Idx → EReal := Cert.Dist.col (Cert.Dist.rowSq (E V c))

theorem flushed_esq (c : Dev nD) (t : Fin cfg0.N) :
    (dat0 V c).flushed 3 t = ((cfg0.win 3).blk t).view.read (Elt Ideal) (Esq V c) := by
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S1024x1024) hz, View.ld_unit_zero (S := S1024x768) hz]
  funext j
  obtain ⟨p, u, rfl⟩ : ∃ (p : Fin 1024) (u : Fin 1), j = ix2 p u := ⟨j 0, j 1, eq_ix2 j⟩
  show k0_pay3 (F := Ideal) (iblk0 V c 0 t) (iblk0 V c 1 t) (ix2 p u) = Esq V c (((cfg0.win 3).blk t).view.emb (ix2 p u))
  have he : ((cfg0.win 3).blk t).view.emb (ix2 p u) = (ix2 (rowAt t p) u : S8192x1.Idx) := by
    funext a
    apply Fin.ext
    match a with
    | ⟨0, _⟩ => show win0_3.index t 0 * 1024 + 1 * p.val = t.val * 1024 + p.val; rw [e6]; omega
    | ⟨1, _⟩ => show win0_3.index t 1 * 1 + 1 * u.val = u.val; rw [e7]; omega
  rw [he]
  show k0_pay3 (F := Ideal) (iblk0 V c 0 t) (iblk0 V c 1 t) (ix2 p u) = Cert.Dist.rowSq (E V c) (rowAt t p)
  refine (Pay.embSqBlock_apply _ _ p u).trans ?_
  unfold Cert.Dist.rowSq
  refine Finset.sum_congr rfl fun d _ => ?_
  show (∑ k : Fin 1024, xB V c t (ix2 p k) * wB V c t (ix2 k d)) * (∑ k : Fin 1024, xB V c t (ix2 p k) * wB V c t (ix2 k d)) = _
  rw [prod_at V c t p d]
  rfl

theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 8 := N_0
  let t : Fin cfg0.N := ⟨(i 0).val / 1024, by omega⟩
  obtain ⟨-, -, -, -, -, -, e6, e7⟩ := idx_facts t
  have ht : t.val = (i 0).val / 1024 := rfl
  refine ⟨t, flush0_3 t, ?_⟩
  rw [mem_blk3]
  intro a
  match a with
  | ⟨0, _⟩ => show win0_3.index t 0 * 1024 ≤ (i 0).val ∧ (i 0).val < win0_3.index t 0 * 1024 + 1024; rw [e6, ht]; omega
  | ⟨1, _⟩ => show win0_3.index t 1 * 1 ≤ (i 1).val ∧ (i 1).val < win0_3.index t 1 * 1 + 1; rw [e7]; omega

/-- The column of squared norms after the region. -/
theorem final_esq (c : Dev nD) : (dat0 V c).arrAt 3 cfg0.N = Esq V c :=
  (dat0 V c).arrAt_eq_of_cover 3 (Esq V c) (fun t _ => flushed_esq V c t) cover3

end Cert.KernelIdeal.RegEmbed

end
-- ==== Proof.RegCentroid.lean ====
/-
  What the centroid preparation kernel's pipeline leaves in its two output arrays.

  Grid point t (of 16) stages rows 1024·t … 1024·t + 1023 of the centroids and writes back the same rows of the
  re-typed copy (the same values over the extended reals) and of the column of squared centroid norms.
-/
import proofs.«100037_j7490422964419_2_alg».proof.Proof.Gen.KernelIdeal.Frame
import proofs.«100037_j7490422964419_2_alg».proof.Proof.PayPrep
import Idealize.ShloMosaic.Lib.Pipeline.Value
import Idealize.ShloMosaic.Lib.ValueIdx

set_option maxRecDepth 16384

noncomputable section

namespace Cert.KernelIdeal.RegCentroid

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 16 grid points: all three windows move down the rows with the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 16 := by
  have h := t.isLt
  have hN : cfg1.N = 16 := N_1
  omega

/-- The array row of a block's row p at grid point t. -/
def rowAt (t : Fin cfg1.N) (p : Fin 1024) : Fin 16384 := ⟨t.val * 1024 + p.val, by have := t_lt t; have := p.isLt; omega⟩

/-- The centroids as the region finds them. -/
abbrev C (c : Dev nD) : S16384x768.Idx → EReal := V c main_arg2

/-- The staged block of point t at (p, d) is the centroid array at (1024·t + p, d). -/
theorem cblk (c : Dev nD) (t : Fin cfg1.N) (p : Fin 1024) (d : Fin 768) :
    (iblk1 V c 0 t : Vec Ideal S1024x768 .f32) (ix2 p d) = C V c (ix2 (rowAt t p) d) := by
  obtain ⟨e0, e1, -⟩ := idx_facts t
  unfold iblk1
  rw [View.read_apply]
  show V c main_arg2 _ = V c main_arg2 _
  congr 1
  funext a
  apply Fin.ext
  match a with
  | ⟨0, _⟩ => show win1_0.index t 0 * 1024 + 1 * p.val = t.val * 1024 + p.val; rw [e0]; omega
  | ⟨1, _⟩ => show win1_0.index t 1 * 768 + 1 * d.val = d.val; rw [e1]; omega

/-! ## The re-typed copy (output window 1) -/

theorem flushed_cb (c : Dev nD) (t : Fin cfg1.N) :
    (dat1 V c).flushed 1 t = ((cfg1.win 1).blk t).view.read (Elt Ideal) (C V c) := by
  obtain ⟨-, -, e2, e3, -⟩ := idx_facts t
  show (cfg1.win 1).cut (grid1.coords t) ((dat1 V c).after 1 t) = _
  rw [after1_1]
  unfold out1_1
  rw [View.canon_unit_zero hz]
  simp only [View.ld_unit_zero (S := S1024x768) hz]
  funext j
  obtain ⟨p, d, rfl⟩ : ∃ (p : Fin 1024) (d : Fin 768), j = ix2 p d := ⟨j 0, j 1, eq_ix2 j⟩
  show k1_pay1 (F := Ideal) (iblk1 V c 0 t) (ix2 p d) = C V c (((cfg1.win 1).blk t).view.emb (ix2 p d))
  have he : ((cfg1.win 1).blk t).view.emb (ix2 p d) = (ix2 (rowAt t p) d : S16384x768.Idx) := by
    funext a
    apply Fin.ext
    match a with
    | ⟨0, _⟩ => show win1_1.index t 0 * 1024 + 1 * p.val = t.val * 1024 + p.val; rw [e2]; omega
    | ⟨1, _⟩ => show win1_1.index t 1 * 768 + 1 * d.val = d.val; rw [e3]; omega
  rw [he]
  refine (Pay.cenBlock_apply _ p d).trans ?_
  exact cblk V c t p d

theorem mem_blk1 (t : Fin cfg1.N) (i : S16384x768.Idx) :
    i ∈ ((cfg1.win 1).blk t).view.set ↔ ∀ a : Fin 2, win1_1.index t a * S1024x768.size a ≤ (i a).val ∧ (i a).val < win1_1.index t a * S1024x768.size a + S1024x768.size a := by
  show i ∈ ((View.whole main_v1_0).slice (win1_1.rect t)).set ↔ _
  rw [View.set_slice_whole, Rect.mem_set_unit]
  exact Iff.rfl

theorem cover1 (i : S16384x768.Idx) :
    ∃ t : Fin cfg1.N, (cfg1.win 1).flush t = true ∧ i ∈ ((cfg1.win 1).blk t).view.set := by
  have hi0 : (i 0).val < 16384 := (i 0).isLt
  have hi1 : (i 1).val < 768 := (i 1).isLt
  have hN : cfg1.N = 16 := N_1
  let t : Fin cfg1.N := ⟨(i 0).val / 1024, by omega⟩
  obtain ⟨-, -, e2, e3, -⟩ := idx_facts t
  have ht : t.val = (i 0).val / 1024 := rfl
  refine ⟨t, flush1_1 t, ?_⟩
  rw [mem_blk1]
  intro a
  match a with
  | ⟨0, _⟩ => show win1_1.index t 0 * 1024 ≤ (i 0).val ∧ (i 0).val < win1_1.index t 0 * 1024 + 1024; rw [e2, ht]; omega
  | ⟨1, _⟩ => show win1_1.index t 1 * 768 ≤ (i 1).val ∧ (i 1).val < win1_1.index t 1 * 768 + 768; rw [e3]; omega

/-- The re-typed copy after the region holds the centroids' values. -/
theorem final_cb (c : Dev nD) : (dat1 V c).arrAt 1 cfg1.N = C V c :=
  (dat1 V c).arrAt_eq_of_cover 1 (C V c) (fun t _ => flushed_cb V c t) cover1

/-! ## The column of squared centroid norms (output window 2) -/

abbrev Csq (c : Dev nD) : S16384x1.Idx → EReal := Cert.Dist.col (Cert.Dist.rowSq (C V c))

theorem flushed_csq (c : Dev nD) (t : Fin cfg1.N) :
    (dat1 V c).flushed 2 t = ((cfg1.win 2).blk t).view.read (Elt Ideal) (Csq V c) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S1024x768) hz]
  funext j
  obtain ⟨p, u, rfl⟩ : ∃ (p : Fin 1024) (u : Fin 1), j = ix2 p u := ⟨j 0, j 1, eq_ix2 j⟩
  show k1_pay2 (F := Ideal) (iblk1 V c 0 t) (ix2 p u) = Csq V c (((cfg1.win 2).blk t).view.emb (ix2 p u))
  have he : ((cfg1.win 2).blk t).view.emb (ix2 p u) = (ix2 (rowAt t p) u : S16384x1.Idx) := by
    funext a
    apply Fin.ext
    match a with
    | ⟨0, _⟩ => show win1_2.index t 0 * 1024 + 1 * p.val = t.val * 1024 + p.val; rw [e4]; omega
    | ⟨1, _⟩ => show win1_2.index t 1 * 1 + 1 * u.val = u.val; rw [e5]; omega
  rw [he]
  show k1_pay2 (F := Ideal) (iblk1 V c 0 t) (ix2 p u) = Cert.Dist.rowSq (C V c) (rowAt t p)
  refine (Pay.cenSqBlock_apply _ p u).trans ?_
  unfold Cert.Dist.rowSq
  refine Finset.sum_congr rfl fun d _ => ?_
  rw [cblk V c t p d]

theorem mem_blk2 (t : Fin cfg1.N) (i : S16384x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1_1).slice (win1_2.rect t)).set ↔ _
  rw [View.set_slice_whole, Rect.mem_set_unit]
  exact Iff.rfl

theorem cover2 (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 16 := N_1
  let t : Fin cfg1.N := ⟨(i 0).val / 1024, by omega⟩
  obtain ⟨-, -, -, -, e4, e5⟩ := idx_facts t
  have ht : t.val = (i 0).val / 1024 := rfl
  refine ⟨t, flush1_2 t, ?_⟩
  rw [mem_blk2]
  intro a
  match a with
  | ⟨0, _⟩ => show win1_2.index t 0 * 1024 ≤ (i 0).val ∧ (i 0).val < win1_2.index t 0 * 1024 + 1024; rw [e4, ht]; omega
  | ⟨1, _⟩ => show win1_2.index t 1 * 1 ≤ (i 1).val ∧ (i 1).val < win1_2.index t 1 * 1 + 1; rw [e5]; omega

/-- The column of squared centroid norms after the region. -/
theorem final_csq (c : Dev nD) : (dat1 V c).arrAt 2 cfg1.N = Csq V c :=
  (dat1 V c).arrAt_eq_of_cover 2 (Csq V c) (fun t _ => flushed_csq V c t) cover2

end Cert.KernelIdeal.RegCentroid

end
-- ==== Proof.PayDist.lean ====
/-
  The distance kernel's block arithmetic, read at an index over the extended reals.

  One grid point holds a [2048, 768] block of embeddings e, a [512, 768] block of centroids c, the [2048, 1] column of
  squared embedding norms and the [1, 512] row of squared centroid norms.  The matrix unit contracts the two blocks
  over their second axes into zero, so the cross block at (p, q) is Σ_d e (p, d) · c (q, d); the column is broadcast
  along the lanes and the row along the sublanes; the stored block at (p, q) is
      0 − ((esq (p, 0) + csq (0, q)) − 2 · cross (p, q)).
-/
import proofs.«100037_j7490422964419_2_alg».proof.Proof.Gen.KernelIdeal.Skeleton
import proofs.«100037_j7490422964419_2_alg».proof.Proof.DistSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- An [a, 1] column broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The operand indices of the [2048, 768] × [512, 768]ᵀ product -/

theorem lhsB_0 (i : S2048x512.Idx) (q : dot_S2048x768_S512x768_S2048x512_1_1_0_0_n_n.contr.Idx) :
    (dot_S2048x768_S512x768_S2048x512_1_1_0_0_n_n.lhsIdx i q 0).val = (i 0).val := by
  unfold DotDims.lhsIdx
  rw [dif_neg (show ¬(0 : Fin S2048x768.rank) ∈ dot_S2048x768_S512x768_S2048x512_1_1_0_0_n_n.lhsBatch by decide), dif_pos (show (0 : Fin S2048x768.rank) ∈ dot_S2048x768_S512x768_S2048x512_1_1_0_0_n_n.lhsNonContracting by decide)]
  rfl
theorem lhsB_1 (i : S2048x512.Idx) (q : dot_S2048x768_S512x768_S2048x512_1_1_0_0_n_n.contr.Idx) :
    (dot_S2048x768_S512x768_S2048x512_1_1_0_0_n_n.lhsIdx i q 1).val = (q ⟨0, by decide⟩).val :=
  dot_S2048x768_S512x768_S2048x512_1_1_0_0_n_n.lhsIdx_val_of_single rfl i q
theorem rhsB_0 (i : S2048x512.Idx) (q : dot_S2048x768_S512x768_S2048x512_1_1_0_0_n_n.contr.Idx) :
    (dot_S2048x768_S512x768_S2048x512_1_1_0_0_n_n.rhsIdx i q 0).val = (i 1).val := by
  unfold DotDims.rhsIdx
  rw [dif_neg (show ¬(0 : Fin S512x768.rank) ∈ dot_S2048x768_S512x768_S2048x512_1_1_0_0_n_n.rhsBatch by decide), dif_pos (show (0 : Fin S512x768.rank) ∈ dot_S2048x768_S512x768_S2048x512_1_1_0_0_n_n.rhsNonContracting by decide)]
  rfl
theorem rhsB_1 (i : S2048x512.Idx) (q : dot_S2048x768_S512x768_S2048x512_1_1_0_0_n_n.contr.Idx) :
    (dot_S2048x768_S512x768_S2048x512_1_1_0_0_n_n.rhsIdx i q 1).val = (q ⟨0, by decide⟩).val :=
  dot_S2048x768_S512x768_S2048x512_1_1_0_0_n_n.rhsIdx_val_of_single rfl i q

/-- The cross block at (p, q): the inner product of row p of the embedding block with row q of the centroid block. -/
theorem prodB_apply (v0 : FVec Ideal S2048x768 .bf16) (v2 : FVec Ideal S512x768 .bf16) (p : Fin 2048) (q : Fin 512) :
    matmul (F := Ideal) dot_S2048x768_S512x768_S2048x512_1_1_0_0_n_n none v0 v2 (constant S2048x512 .f32 0x00000000#32) (ix2 p q)
      = ∑ d : Fin 768, v0 (ix2 p d) * v2 (ix2 q d) := by
  refine (Ideal.matmul_constant_zero_apply dot_S2048x768_S512x768_S2048x512_1_1_0_0_n_n none _ _ (ix2 p q)).trans ?_
  rw [← Equiv.sum_comp (ValueIdx.contrEquiv1 dot_S2048x768_S512x768_S2048x512_1_1_0_0_n_n 768 rfl rfl).symm]
  refine Finset.sum_congr rfl fun k _ => ?_
  have hk := ValueIdx.contrEquiv1_symm_val dot_S2048x768_S512x768_S2048x512_1_1_0_0_n_n 768 rfl rfl k
  have el : dot_S2048x768_S512x768_S2048x512_1_1_0_0_n_n.lhsIdx (ix2 p q) ((ValueIdx.contrEquiv1 dot_S2048x768_S512x768_S2048x512_1_1_0_0_n_n 768 rfl rfl).symm k) = ix2 p k := funext fun a => Fin.ext (by
    match a with
    | ⟨0, _⟩ => exact lhsB_0 _ _
    | ⟨1, _⟩ => exact (lhsB_1 _ _).trans hk)
  have er : dot_S2048x768_S512x768_S2048x512_1_1_0_0_n_n.rhsIdx (ix2 p q) ((ValueIdx.contrEquiv1 dot_S2048x768_S512x768_S2048x512_1_1_0_0_n_n 768 rfl rfl).symm k) = ix2 q k := funext fun a => Fin.ext (by
    match a with
    | ⟨0, _⟩ => exact rhsB_0 _ _
    | ⟨1, _⟩ => exact (rhsB_1 _ _).trans hk)
  rw [el, er]

/-- The stored distance block at (p, q). -/
theorem distBlock_apply (v0 : Vec Ideal S2048x768 .bf16) (v2 : Vec Ideal S512x768 .bf16) (v5 : Vec Ideal S2048x1 .f32)
    (v7 : Vec Ideal S1x512 .f32) (p : Fin 2048) (q : Fin 512) :
    k2_pay1 (F := Ideal) v0 v2 v5 v7 (ix2 p q)
      = Ideal.ofBits .f32 0x00000000#32 - ((v5 (ix2 p (0 : Fin 1)) + v7 (ix2 (0 : Fin 1) q))
          - Ideal.ofBits .f32 0x40000000#32 * ∑ d : Fin 768, v0 (ix2 p d) * v2 (ix2 q d)) := by
  unfold k2_pay1
  simp only [shapeCast_self]
  show Ideal.ofBits .f32 0x00000000#32 - ((broadcastTo S2048x512 v5 broadcasts_S2048x1_S2048x512 (ix2 p q)
      + broadcastTo S2048x512 v7 broadcasts_S1x512_S2048x512 (ix2 p q))
      - Ideal.ofBits .f32 0x40000000#32 * matmul (F := Ideal) dot_S2048x768_S512x768_S2048x512_1_1_0_0_n_n none v0 v2 (constant S2048x512 .f32 0x00000000#32) (ix2 p q)) = _
  rw [broadcastTo_a1_ab_apply, broadcastTo_1b_ab_apply, prodB_apply]

end Cert.KernelIdeal.Pay

end
-- ==== Proof.RegDist.lean ====
/-
  What the distance kernel's pipeline leaves in the result array, as a function of the four arrays it finds.

  Grid point t (of 4 × 32, row-major: i = t / 32, j = t mod 32) stages rows 2048·i … of the embedding and of the
  column of squared embedding norms, rows 512·j … of the centroids, columns 512·j … of the row of squared centroid
  norms, and writes back the [2048, 512] block (i, j) of the result.  A block's element (p, q) sits at array index
  (2048·i + p, 512·j + q); the 128 blocks tile the [8192, 16384] result.
  The kernel spells the negation as 0 − a, which over the extended reals is −a for every a.
-/
import proofs.«100037_j7490422964419_2_alg».proof.Proof.Gen.KernelIdeal.Frame
import proofs.«100037_j7490422964419_2_alg».proof.Proof.PayDist
import Idealize.ShloMosaic.Lib.Pipeline.Value
import Idealize.ShloMosaic.Lib.ValueIdx

set_option maxRecDepth 16384

noncomputable section

namespace Cert.KernelIdeal.RegDist

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 128 grid points. -/
theorem idx_facts : ∀ t : Fin cfg2.N, win2_0.index t (0 : Fin 2) = t.val / 32 ∧ win2_0.index t (1 : Fin 2) = 0
    ∧ win2_1.index t (0 : Fin 2) = t.val % 32 ∧ win2_1.index t (1 : Fin 2) = 0
    ∧ win2_2.index t (0 : Fin 2) = t.val / 32 ∧ win2_2.index t (1 : Fin 2) = 0
    ∧ win2_3.index t (0 : Fin 2) = 0 ∧ win2_3.index t (1 : Fin 2) = t.val % 32
    ∧ win2_4.index t (0 : Fin 2) = t.val / 32 ∧ win2_4.index t (1 : Fin 2) = t.val % 32 :=
  (by decide +kernel : ∀ t : Fin grid2.N, _)

theorem t_lt (t : Fin cfg2.N) : t.val < 128 := by
  have h := t.isLt
  have hN : cfg2.N = 128 := N_2
  omega

/-- The array row of a block's row p, and the array column of a block's column q, at grid point t. -/
def rowAt (t : Fin cfg2.N) (p : Fin 2048) : Fin 8192 := ⟨t.val / 32 * 2048 + p.val, by have := t_lt t; have := p.isLt; omega⟩
def colAt (t : Fin cfg2.N) (q : Fin 512) : Fin 16384 := ⟨t.val % 32 * 512 + q.val, by have := t_lt t; have := q.isLt; omega⟩

/-- The four arrays as the region finds them. -/
abbrev Ein (c : Dev nD) : S8192x768.Idx → EReal := V c main_v0_0
abbrev Cin (c : Dev nD) : S16384x768.Idx → EReal := V c main_v1_0
abbrev EsqIn (c : Dev nD) : S8192x1.Idx → EReal := V c main_v0_1
abbrev CsqIn (c : Dev nD) : S1x16384.Idx → EReal := V c main_v2

/-- The four staged blocks of point t, as arrays of extended reals. -/
abbrev eB (c : Dev nD) (t : Fin cfg2.N) : S2048x768.Idx → EReal := iblk2 V c 0 t
abbrev cB (c : Dev nD) (t : Fin cfg2.N) : S512x768.Idx → EReal := iblk2 V c 1 t
abbrev esqB (c : Dev nD) (t : Fin cfg2.N) : S2048x1.Idx → EReal := iblk2 V c 2 t
abbrev csqB (c : Dev nD) (t : Fin cfg2.N) : S1x512.Idx → EReal := iblk2 V c 3 t

theorem eblk (c : Dev nD) (t : Fin cfg2.N) (p : Fin 2048) (d : Fin 768) :
    eB V c t (ix2 p d) = Ein V c (ix2 (rowAt t p) d) := by
  obtain ⟨e0, e1, -⟩ := idx_facts t
  show (iblk2 V c 0 t : Vec Ideal S2048x768 .bf16) (ix2 p d) = _
  unfold iblk2
  rw [View.read_apply]
  show V c main_v0_0 _ = V c main_v0_0 _
  congr 1
  funext a
  apply Fin.ext
  match a with
  | ⟨0, _⟩ => show win2_0.index t 0 * 2048 + 1 * p.val = t.val / 32 * 2048 + p.val; rw [e0]; omega
  | ⟨1, _⟩ => show win2_0.index t 1 * 768 + 1 * d.val = d.val; rw [e1]; omega

theorem cblk (c : Dev nD) (t : Fin cfg2.N) (q : Fin 512) (d : Fin 768) :
    cB V c t (ix2 q d) = Cin V c (ix2 (colAt t q) d) := by
  obtain ⟨-, -, e2, e3, -⟩ := idx_facts t
  show (iblk2 V c 1 t : Vec Ideal S512x768 .bf16) (ix2 q d) = _
  unfold iblk2
  rw [View.read_apply]
  show V c main_v1_0 _ = V c main_v1_0 _
  congr 1
  funext a
  apply Fin.ext
  match a with
  | ⟨0, _⟩ => show win2_1.index t 0 * 512 + 1 * q.val = t.val % 32 * 512 + q.val; rw [e2]; omega
  | ⟨1, _⟩ => show win2_1.index t 1 * 768 + 1 * d.val = d.val; rw [e3]; omega

theorem esqblk (c : Dev nD) (t : Fin cfg2.N) (p : Fin 2048) (u : Fin 1) :
    esqB V c t (ix2 p u) = EsqIn V c (ix2 (rowAt t p) u) := by
  obtain ⟨-, -, -, -, e4, e5, -⟩ := idx_facts t
  show (iblk2 V c 2 t : Vec Ideal S2048x1 .f32) (ix2 p u) = _
  unfold iblk2
  rw [View.read_apply]
  show V c main_v0_1 _ = V c main_v0_1 _
  congr 1
  funext a
  apply Fin.ext
  match a with
  | ⟨0, _⟩ => show win2_2.index t 0 * 2048 + 1 * p.val = t.val / 32 * 2048 + p.val; rw [e4]; omega
  | ⟨1, _⟩ => show win2_2.index t 1 * 1 + 1 * u.val = u.val; rw [e5]; omega

theorem csqblk (c : Dev nD) (t : Fin cfg2.N) (u : Fin 1) (q : Fin 512) :
    csqB V c t (ix2 u q) = CsqIn V c (ix2 u (colAt t q)) := by
  obtain ⟨-, -, -, -, -, -, e6, e7, -⟩ := idx_facts t
  show (iblk2 V c 3 t : Vec Ideal S1x512 .f32) (ix2 u q) = _
  unfold iblk2
  rw [View.read_apply]
  show V c main_v2 _ = V c main_v2 _
  congr 1
  funext a
  apply Fin.ext
  match a with
  | ⟨0, _⟩ => show win2_3.index t 0 * 1 + 1 * u.val = u.val; rw [e6]; omega
  | ⟨1, _⟩ => show win2_3.index t 1 * 512 + 1 * q.val = t.val % 32 * 512 + q.val; rw [e7]; omega

/-- The result the region computes from the four arrays it finds. -/
abbrev Out (c : Dev nD) : S8192x16384.Idx → EReal := Cert.Dist.resultOf (Ein V c) (Cin V c) (EsqIn V c) (CsqIn V c)

/-- Point t writes back block t of the result. -/
theorem flushed_out (c : Dev nD) (t : Fin cfg2.N) :
    (dat2 V c).flushed 4 t = ((cfg2.win 4).blk t).view.read (Elt Ideal) (Out V c) := by
  obtain ⟨-, -, -, -, -, -, -, -, e8, e9⟩ := idx_facts t
  show (cfg2.win 4).cut (grid2.coords t) ((dat2 V c).after 4 t) = _
  rw [after2_4]
  unfold out2_4
  rw [View.canon_unit_zero hz]
  simp only [View.ld_unit_zero (S := S2048x768) hz, View.ld_unit_zero (S := S512x768) hz, View.ld_unit_zero (S := S2048x1) hz, View.ld_unit_zero (S := S1x512) hz]
  funext j
  obtain ⟨p, q, rfl⟩ : ∃ (p : Fin 2048) (q : Fin 512), j = ix2 p q := ⟨j 0, j 1, eq_ix2 j⟩
  show k2_pay1 (F := Ideal) (iblk2 V c 0 t) (iblk2 V c 1 t) (iblk2 V c 2 t) (iblk2 V c 3 t) (ix2 p q) = Out V c (((cfg2.win 4).blk t).view.emb (ix2 p q))
  have he : ((cfg2.win 4).blk t).view.emb (ix2 p q) = (ix2 (rowAt t p) (colAt t q) : S8192x16384.Idx) := by
    funext a
    apply Fin.ext
    match a with
    | ⟨0, _⟩ => show win2_4.index t 0 * 2048 + 1 * p.val = t.val / 32 * 2048 + p.val; rw [e8]; omega
    | ⟨1, _⟩ => show win2_4.index t 1 * 512 + 1 * q.val = t.val % 32 * 512 + q.val; rw [e9]; omega
  rw [he]
  refine (Pay.distBlock_apply _ _ _ _ p q).trans ?_
  show Ideal.ofBits .f32 0x00000000#32 - ((esqB V c t (ix2 p (0 : Fin 1)) + csqB V c t (ix2 (0 : Fin 1) q))
      - Ideal.ofBits .f32 0x40000000#32 * ∑ d : Fin 768, eB V c t (ix2 p d) * cB V c t (ix2 q d))
    = Cert.Dist.negDist (EsqIn V c (ix2 (rowAt t p) (0 : Fin 1))) (CsqIn V c (ix2 (0 : Fin 1) (colAt t q)))
        (Cert.Dist.rowDot (Ein V c) (Cin V c) (rowAt t p) (colAt t q))
  rw [esqblk V c t p 0, csqblk V c t 0 q, Ideal.ofBits_zero_f32, zero_sub]
  unfold Cert.Dist.negDist Cert.Dist.rowDot Cert.Dist.two
  refine congrArg (fun s => -((EsqIn V c (ix2 (rowAt t p) (0 : Fin 1)) + CsqIn V c (ix2 (0 : Fin 1) (colAt t q))) - Ideal.ofBits .f32 0x40000000#32 * s)) ?_
  refine Finset.sum_congr rfl fun d _ => ?_
  rw [eblk V c t p d, cblk V c t q d]

theorem mem_blk4 (t : Fin cfg2.N) (i : S8192x16384.Idx) :
    i ∈ ((cfg2.win 4).blk t).view.set ↔ ∀ a : Fin 2, win2_4.index t a * S2048x512.size a ≤ (i a).val ∧ (i a).val < win2_4.index t a * S2048x512.size a + S2048x512.size a := by
  show i ∈ ((View.whole main_v3).slice (win2_4.rect t)).set ↔ _
  rw [View.set_slice_whole, Rect.mem_set_unit]
  exact Iff.rfl

/-- Entry (r, j) of the result is written by the point (r / 2048, j / 512). -/
theorem cover4 (i : S8192x16384.Idx) :
    ∃ t : Fin cfg2.N, (cfg2.win 4).flush t = true ∧ i ∈ ((cfg2.win 4).blk t).view.set := by
  have hi0 : (i 0).val < 8192 := (i 0).isLt
  have hi1 : (i 1).val < 16384 := (i 1).isLt
  have hN : cfg2.N = 128 := N_2
  let t : Fin cfg2.N := ⟨(i 0).val / 2048 * 32 + (i 1).val / 512, by omega⟩
  obtain ⟨-, -, -, -, -, -, -, -, e8, e9⟩ := idx_facts t
  have ht : t.val = (i 0).val / 2048 * 32 + (i 1).val / 512 := rfl
  refine ⟨t, flush2_4 t, ?_⟩
  rw [mem_blk4]
  intro a
  match a with
  | ⟨0, _⟩ => show win2_4.index t 0 * 2048 ≤ (i 0).val ∧ (i 0).val < win2_4.index t 0 * 2048 + 2048; rw [e8, ht]; omega
  | ⟨1, _⟩ => show win2_4.index t 1 * 512 ≤ (i 1).val ∧ (i 1).val < win2_4.index t 1 * 512 + 512; rw [e9, ht]; omega

/-- The result array after the region. -/
theorem final_out (c : Dev nD) : (dat2 V c).arrAt 4 cfg2.N = Out V c :=
  (dat2 V c).arrAt_eq_of_cover 4 (Out V c) (fun t _ => flushed_out V c t) cover4

end Cert.KernelIdeal.RegDist

end
-- ==== Proof.KernelRun.lean ====
/-
  The kernel program's run, read: its result array ends at the specification of its three argument arrays.

  The program is three pipelined kernels with one host transpose between the second and the third.  The buffer
  contents at each boundary are a fold from the launch memory: after the embedding kernel its two outputs hold
  x @ W and the column of its squared row norms; after the centroid kernel its two outputs hold the centroids and the
  column of their squared row norms, the first kernel's outputs untouched; the host transpose turns that column
  into a row and touches nothing else; the distance kernel then leaves the result, which, handed exactly those four
  arrays, is the specification.  The run itself is the library's launch theorem for a program cut into segments, with
  the result array's final contents read off the last boundary beside the (unchanged) arguments.
-/
import proofs.«100037_j7490422964419_2_alg».proof.Proof.Gen.KernelIdeal.Frame
import proofs.«100037_j7490422964419_2_alg».proof.Proof.RegEmbed
import proofs.«100037_j7490422964419_2_alg».proof.Proof.RegCentroid
import proofs.«100037_j7490422964419_2_alg».proof.Proof.RegDist
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The three argument arrays as launched. -/
abbrev X (c : Dev nD) : S8192x1024.Idx → EReal := m ((c : Thread nD τ).loc main_arg0)
abbrev Wt (c : Dev nD) : S1024x768.Idx → EReal := m ((c : Thread nD τ).loc main_arg1)
abbrev Cn (c : Dev nD) : S16384x768.Idx → EReal := m ((c : Thread nD τ).loc main_arg2)

/-- The embedding of the launched arguments. -/
abbrev Em (c : Dev nD) : S8192x768.Idx → EReal := Cert.Dist.embArr (X m c) (Wt m c)

/-! ## After the embedding kernel -/

theorem W1_emb (c : Dev nD) : (W1 m ρ c (Proc.devRef .tc main_v0_0) : S8192x768.Idx → EReal) = Em m c :=
  (W1_arr m ρ c 2).trans (RegEmbed.final_emb (V0 m ρ) c)

theorem W1_esq (c : Dev nD) :
    (W1 m ρ c (Proc.devRef .tc main_v0_1) : S8192x1.Idx → EReal) = Cert.Dist.col (Cert.Dist.rowSq (Em m c)) :=
  (W1_arr m ρ c 3).trans (RegEmbed.final_esq (V0 m ρ) c)

theorem W1_cen (c : Dev nD) : (W1 m ρ c (Proc.devRef .tc main_arg2) : S16384x768.Idx → EReal) = Cn m c :=
  W1_of_ne m ρ c main_arg2 (by decide)

/-! ## After the centroid kernel -/

theorem W2_cb (c : Dev nD) : (W2 m ρ c (Proc.devRef .tc main_v1_0) : S16384x768.Idx → EReal) = Cn m c :=
  ((W2_arr m ρ c 1).trans (RegCentroid.final_cb (V1 m ρ) c)).trans (W1_cen m ρ c)

theorem W2_csq (c : Dev nD) :
    (W2 m ρ c (Proc.devRef .tc main_v1_1) : S16384x1.Idx → EReal) = Cert.Dist.col (Cert.Dist.rowSq (Cn m c)) :=
  ((W2_arr m ρ c 2).trans (RegCentroid.final_csq (V1 m ρ) c)).trans
    (congrArg (fun a : S16384x768.Idx → EReal => Cert.Dist.col (Cert.Dist.rowSq a)) (W1_cen m ρ c))

theorem W2_emb (c : Dev nD) : (W2 m ρ c (Proc.devRef .tc main_v0_0) : S8192x768.Idx → EReal) = Em m c :=
  (W2_of_ne m ρ c main_v0_0 (by decide)).trans (W1_emb m ρ c)

theorem W2_esq (c : Dev nD) :
    (W2 m ρ c (Proc.devRef .tc main_v0_1) : S8192x1.Idx → EReal) = Cert.Dist.col (Cert.Dist.rowSq (Em m c)) :=
  (W2_of_ne m ρ c main_v0_1 (by decide)).trans (W1_esq m ρ c)

/-! ## After the host transpose -/

/-- The host line writes the transposed column into its result and leaves every other buffer. -/
theorem host_row (W : Valuation τ sig (Elt Ideal)) :
    StableHlo.after (hostOps2 (F := Ideal)) W (Proc.devRef .tc main_v2)
      = transpose S1x16384 [1, 0] (W (Proc.devRef .tc main_v1_1)) transposes_S16384x1_S1x16384_1_0 := by
  first | (after_results; done) | (after_results; rfl)
theorem host_keep_emb (W : Valuation τ sig (Elt Ideal)) :
    StableHlo.after (hostOps2 (F := Ideal)) W (Proc.devRef .tc main_v0_0) = W (Proc.devRef .tc main_v0_0) := by
  first | (after_results; done) | (after_results; rfl)
theorem host_keep_esq (W : Valuation τ sig (Elt Ideal)) :
    StableHlo.after (hostOps2 (F := Ideal)) W (Proc.devRef .tc main_v0_1) = W (Proc.devRef .tc main_v0_1) := by
  first | (after_results; done) | (after_results; rfl)
theorem host_keep_cb (W : Valuation τ sig (Elt Ideal)) :
    StableHlo.after (hostOps2 (F := Ideal)) W (Proc.devRef .tc main_v1_0) = W (Proc.devRef .tc main_v1_0) := by
  first | (after_results; done) | (after_results; rfl)

/-- A column laid out as [n, 1], transposed, is the same function of the row index laid out as [1, n]. -/
theorem transpose_col (f : Fin 16384 → EReal) (h : S16384x1.Transposes [1, 0] S1x16384) :
    transpose S1x16384 [1, 0] (Cert.Dist.col f : S16384x1.Idx → EReal) h = Cert.Dist.row f := by
  funext i
  obtain ⟨u, j, rfl⟩ : ∃ (u : Fin 1) (j : Fin 16384), i = ix2 u j := ⟨i 0, i 1, eq_ix2 i⟩
  exact transpose_ix2_apply _ h u j

theorem W3_emb (c : Dev nD) : (W3 m ρ c (Proc.devRef .tc main_v0_0) : S8192x768.Idx → EReal) = Em m c :=
  (host_keep_emb (W2 m ρ c)).trans (W2_emb m ρ c)
theorem W3_esq (c : Dev nD) :
    (W3 m ρ c (Proc.devRef .tc main_v0_1) : S8192x1.Idx → EReal) = Cert.Dist.col (Cert.Dist.rowSq (Em m c)) :=
  (host_keep_esq (W2 m ρ c)).trans (W2_esq m ρ c)
theorem W3_cb (c : Dev nD) : (W3 m ρ c (Proc.devRef .tc main_v1_0) : S16384x768.Idx → EReal) = Cn m c :=
  (host_keep_cb (W2 m ρ c)).trans (W2_cb m ρ c)
theorem W3_csq (c : Dev nD) :
    (W3 m ρ c (Proc.devRef .tc main_v2) : S1x16384.Idx → EReal) = Cert.Dist.row (Cert.Dist.rowSq (Cn m c)) := by
  refine (host_row (W2 m ρ c)).trans ?_
  rw [W2_csq m ρ c]
  exact transpose_col _ _

/-! ## After the distance kernel -/

/-- The result array at the last boundary is the specification of the launched arguments. -/
theorem W4_out (c : Dev nD) :
    (W4 m ρ c (Proc.devRef .tc main_v3) : S8192x16384.Idx → EReal) = Cert.Dist.result (X m c) (Wt m c) (Cn m c) := by
  refine ((W4_arr m ρ c 4).trans (RegDist.final_out (V3 m ρ) c)).trans ?_
  show Cert.Dist.resultOf (W3 m ρ c (Proc.devRef .tc main_v0_0) : S8192x768.Idx → EReal) (W3 m ρ c (Proc.devRef .tc main_v1_0) : S16384x768.Idx → EReal)
    (W3 m ρ c (Proc.devRef .tc main_v0_1) : S8192x1.Idx → EReal) (W3 m ρ c (Proc.devRef .tc main_v2) : S1x16384.Idx → EReal) = _
  rw [W3_emb m ρ c, W3_cb m ρ c, W3_esq m ρ c, W3_csq m ρ c]
  exact Cert.Dist.resultOf_prepared _ _ _

/-! ## The run -/

set_option backward.isDefEq.respectTransparency.types false in
/-- Every weakly fair execution of the kernel program terminates without a fault, its result array holding the
    specification of the launched arguments and the arguments unchanged: the library's launch theorem over the
    program's four segments, the final state read against the last boundary's contents. -/
theorem run : θ_run defs (onTc (τ := τ) (main (F := Ideal))) ⟨m, fun _ => 0, ρ⟩ (fun r => ∀ c : Dev nD,
      r.2.mem ((c.tc : Thread nD τ).loc main_v3) = Cert.Dist.result (X m c) (Wt m c) (Cn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Whole

end
-- ==== Proof.RefValue.lean ====
/-
  The reference's result, stage by stage, is the specification.

  The reference computes e = x @ W by one host matrix product, its row sums of squares and the centroids' row sums
  of squares by host reductions started from 0 (0 + s = s over the extended reals), the cross term by a second
  matrix product against the transposed centroids (whose (d, j) entry is the centroids' (j, d) entry), broadcasts
  the two norms over the [8192, 16384] result and negates (esq + csq) − 2 · cross.
-/
import proofs.«100037_j7490422964419_2_alg».proof.Proof.Gen.ReferenceIdeal.Read
import proofs.«100037_j7490422964419_2_alg».proof.Proof.DistSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S8192x1024, .f32⟩ : BufTy).Contents (Elt Ideal)) (x1 : (⟨S1024x768, .f32⟩ : BufTy).Contents (Elt Ideal))
  (x2 : (⟨S16384x768, .f32⟩ : BufTy).Contents (Elt Ideal))

/-- The first matrix product at (r, d) is the embedding there. -/
theorem emb_at (r : Fin 8192) (d : Fin 768) : val_main_v0 (F := Ideal) x0 x1 (ix2 r d) = Cert.Dist.emb x0 x1 r d := by
  rw [val_main_v0_apply]
  unfold Cert.Dist.emb
  refine Finset.sum_congr rfl fun k _ => ?_
  have e1 : lidx_main_v0 (ix2 r d) k = ix2 r k := funext fun a => Fin.ext (by match a with | ⟨0, _⟩ => rfl | ⟨1, _⟩ => rfl)
  have e2 : ridx_main_v0 (ix2 r d) k = ix2 k d := funext fun a => Fin.ext (by match a with | ⟨0, _⟩ => rfl | ⟨1, _⟩ => rfl)
  rw [e1, e2]

/-- The host sum of the embedding's squares along a row, at r. -/
theorem esq_at (r : Fin 8192) : val_main_v2 (F := Ideal) x0 x1 (ix1 r) = Cert.Dist.rowSq (Cert.Dist.embArr x0 x1) r := by
  rw [val_main_v2_apply, val_main_cst_apply]
  show Ideal.ofBits .f32 0x00000000#32 + _ = _
  rw [Ideal.ofBits_zero_f32, zero_add]
  unfold Cert.Dist.rowSq
  refine Finset.sum_congr rfl fun d _ => ?_
  have e1 : idx_main_v2 (ix1 r) d = ix2 r d := funext fun a => Fin.ext (by match a with | ⟨0, _⟩ => rfl | ⟨1, _⟩ => rfl)
  rw [e1, val_main_v1_apply, emb_at]
  rfl

/-- The host sum of the centroids' squares along a row, at j. -/
theorem csq_at (j : Fin 16384) : val_main_v5 (F := Ideal) x2 (ix1 j) = Cert.Dist.rowSq x2 j := by
  rw [val_main_v5_apply, val_main_cst_0_apply]
  show Ideal.ofBits .f32 0x00000000#32 + _ = _
  rw [Ideal.ofBits_zero_f32, zero_add]
  unfold Cert.Dist.rowSq
  refine Finset.sum_congr rfl fun d _ => ?_
  have e1 : idx_main_v5 (ix1 j) d = ix2 j d := funext fun a => Fin.ext (by match a with | ⟨0, _⟩ => rfl | ⟨1, _⟩ => rfl)
  rw [e1, val_main_v4_apply]
  rfl

/-- The second matrix product at (r, j) is the inner product of embedding row r with centroid j. -/
theorem cross_at (r : Fin 8192) (j : Fin 16384) :
    val_main_v7 (F := Ideal) x0 x1 x2 (ix2 r j) = Cert.Dist.rowDot (Cert.Dist.embArr x0 x1) x2 r j := by
  rw [val_main_v7_apply]
  unfold Cert.Dist.rowDot
  refine Finset.sum_congr rfl fun d _ => ?_
  have e1 : lidx_main_v7 (ix2 r j) d = ix2 r d := funext fun a => Fin.ext (by match a with | ⟨0, _⟩ => rfl | ⟨1, _⟩ => rfl)
  have e2 : idx_main_v6 (ridx_main_v7 (ix2 r j) d) = ix2 j d := funext fun a => Fin.ext (by match a with | ⟨0, _⟩ => rfl | ⟨1, _⟩ => rfl)
  rw [e1, val_main_v6_apply, e2, emb_at]
  rfl

/-- The reference's result is the specification. -/
theorem result_eq : val_main_v15 (F := Ideal) x0 x1 x2 = Cert.Dist.result x0 x1 x2 := by
  funext i
  obtain ⟨r, j, rfl⟩ : ∃ (r : Fin 8192) (j : Fin 16384), i = ix2 r j := ⟨i 0, i 1, eq_ix2 i⟩
  have e9 : idx_main_v3 (idx_main_v9 (ix2 r j)) = ix1 r := funext fun a => Fin.ext (by match a with | ⟨0, _⟩ => rfl)
  have e10 : idx_main_v8 (idx_main_v10 (ix2 r j)) = ix1 j := funext fun a => Fin.ext (by match a with | ⟨0, _⟩ => rfl)
  rw [val_main_v15_apply, val_main_v14_apply, val_main_v11_apply, val_main_v13_apply, val_main_v9_apply, val_main_v3_apply,
    e9, esq_at, val_main_v10_apply, val_main_v8_apply, e10, csq_at, val_main_v12_apply, val_main_cst_1_apply, cross_at]
  rfl

end Cert.ReferenceIdeal.RefValue

end
-- ==== Proof.lean ====
/-
  Negated squared distances of projected rows to centroids: the kernel program against its reference, over the
  extended reals.

  Both programs compute, for x : [8192, 1024], W : [1024, 768] and centroids C : [16384, 768],
      out (r, j) = −((‖e_r‖² + ‖C_j‖²) − 2 · ⟨e_r, C_j⟩),      e = x @ W,
  (Proof/DistSpec.lean).  The kernel program does it in three pipelined kernels — the embedding with its squared row
  norms, a copy of the centroids with their squared row norms, and the tiled cross term with the distance epilogue —
  with one host transpose in between; its roundings to bf16 are the identity over the extended reals, its matrix
  products accumulate into zero, and its negation is spelt 0 − a.  The reference does it in one line of host
  operations whose reductions start from 0.  Neither side regroups a sum or moves a factor, so the two results are the
  same expression index by index and the precondition (finite inputs) is never opened.

  The three frame claims are the generated frame certificates (the reference's is its generated run with the result
  dropped); the idealization rewrote nothing, so the preservation claim is trivial; the value claim sets the kernel
  program's run (Proof/KernelRun.lean, over Proof/RegEmbed.lean, Proof/RegCentroid.lean, Proof/RegDist.lean and the
  block arithmetic of Proof/PayPrep.lean, Proof/PayDist.lean) beside the reference's run read stage by stage
  (Proof/RefValue.lean).
-/
import proofs.«100037_j7490422964419_2_alg».proof.Defs
import proofs.«100037_j7490422964419_2_alg».proof.Proof.Gen.Kernel
import proofs.«100037_j7490422964419_2_alg».proof.Proof.Gen.Kernel.Skeleton
import proofs.«100037_j7490422964419_2_alg».proof.Proof.Gen.Kernel.Launch
import proofs.«100037_j7490422964419_2_alg».proof.Proof.Gen.Kernel.Points
import proofs.«100037_j7490422964419_2_alg».proof.Proof.Gen.Kernel.Frame
import proofs.«100037_j7490422964419_2_alg».proof.Proof.Gen.KernelIdeal
import proofs.«100037_j7490422964419_2_alg».proof.Proof.Gen.KernelIdeal.Skeleton
import proofs.«100037_j7490422964419_2_alg».proof.Proof.Gen.KernelIdeal.Launch
import proofs.«100037_j7490422964419_2_alg».proof.Proof.Gen.KernelIdeal.Points
import proofs.«100037_j7490422964419_2_alg».proof.Proof.Gen.KernelIdeal.Frame
import proofs.«100037_j7490422964419_2_alg».proof.Proof.Gen.ReferenceIdeal
import proofs.«100037_j7490422964419_2_alg».proof.Proof.Gen.ReferenceIdeal.Run
import proofs.«100037_j7490422964419_2_alg».proof.Proof.Gen.ReferenceIdeal.Read
import proofs.«100037_j7490422964419_2_alg».proof.Proof.Gen.Pre_finite_inputs
import proofs.«100037_j7490422964419_2_alg».proof.Proof.KernelRun
import proofs.«100037_j7490422964419_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of the arguments in their
    result arrays. -/
theorem algebraic : Cert.algebraic_KernelIdeal_ReferenceIdeal := by
  intro m ρ m' ρ' _ hagree
  refine ⟨fun c => Cert.Dist.result (Cert.KernelIdeal.Whole.X m c) (Cert.KernelIdeal.Whole.Wt m c) (Cert.KernelIdeal.Whole.Cn m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
